-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x4096 .f32) (main_arg1 : FVec F S4096x4096 .f32) (main_arg2 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩
abbrev S64x4096 : Shape := ⟨2, ![64, 4096]⟩

abbrev nBuf : Space → Nat
  | .hbm => 6
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S2048x4096, .f32⟩
  | .local _ .vmem, ⟨0, _⟩ => ⟨S64x4096, .f32⟩
  | .local _ .vmem, ⟨1, _⟩ => ⟨S64x4096, .f32⟩
  | .local _ .vmem, ⟨2, _⟩ => ⟨S4096x4096, .bf16⟩
  | .local _ .vmem, ⟨3, _⟩ => ⟨S1x4096, .f32⟩
  | .local _ .vmem, ⟨4, _⟩ => ⟨S64x4096, .f32⟩
  | .local _ .vmem, ⟨5, _⟩ => ⟨S64x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S4096_S1x4096 : S4096.ShapeCasts S1x4096
  inb_S64x4096_S64x4096_0_0 : ∀ a, (![0, 0] : Fin 2 → Nat) a + S64x4096.size a ≤ S64x4096.size a
  h_S64x4096 : 0 < S64x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  broadcasts_S1x4096_S64x4096 : S1x4096.Broadcasts S64x4096
  dot_S64x4096_S4096x4096_S64x4096_1_0_0_1_n_n_wf : DotDims.WF S64x4096 S4096x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S2048x4096.size a
  hwx0_0 : ∀ i : grid0.Coords, EltTy.bits .f32 = 32 ∨ (Rect.block (s := S2048x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S2048x4096.size a
  hwx0_3 : ∀ i : grid0.Coords, EltTy.bits .f32 = 32 ∨ (Rect.block (s := S2048x4096) S64x4096.size (cc0_transform_3 i) (hinb0_3 i)).WholeWords (EltTy.packing .f32)

variable [Facts₀]

def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf

abbrev win0_0 : Pipeline.Window sig grid0 :=
  Pipeline.Window.ofSpec (Memref.whole main_arg0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S2048x4096, .f32⟩
  | .hbm, ⟨4, _⟩ => ⟨S1x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S1x4096, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S1x4096, .f32⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S1x4096, .f32⟩
  | .hbm, ⟨17, _⟩ => ⟨S2048x4096, .f32⟩
  | .hbm, ⟨18, _⟩ => ⟨S2048x4096, .f32⟩
  | .hbm, ⟨19, _⟩ => ⟨S2048x4096, .f32⟩
  | .hbm, ⟨20, _⟩ => ⟨S1x4096, .f32⟩
  | .hbm, ⟨21, _⟩ => ⟨S2048x4096, .f32⟩
  | .hbm, ⟨22, _⟩ => ⟨S2048x4096, .f32⟩
  | .hbm, ⟨23, _⟩ => ⟨S2048x4096, .f32⟩
  | .hbm, ⟨24, _⟩ => ⟨S1x4096, .f32⟩
  | .hbm, ⟨25, _⟩ => ⟨S2048x4096, .f32⟩
  | .hbm, ⟨26, _⟩ => ⟨S2048x4096, .f32⟩
  | .hbm, ⟨27, _⟩ => ⟨S2048x4096, .f32⟩
  | .hbm, ⟨28, _⟩ => ⟨S1x4096, .f32⟩
  | .hbm, ⟨29, _⟩ => ⟨S2048x4096, .f32⟩
  | .hbm, ⟨30, _⟩ => ⟨S2048x4096, .f32⟩
  | .hbm, ⟨31, _⟩ => ⟨S2048x4096, .f32⟩
  | .hbm, ⟨32, _⟩ => ⟨S1x4096, .f32⟩
  | .hbm, ⟨33, _⟩ => ⟨S2048x4096, .f32⟩
  | .hbm, ⟨34, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.Rounds.lean ====
/-
  The mathematics both programs compute, stated once over plain index types.

  A ROUND acts on a row vector `v` of length 4096: first the row is multiplied by the square matrix `H`
  (entry `j` of the product is the sum over `k` of `v k * H k j`), then entry `j` is multiplied by the phase
  `cz j`. The result array holds, in row `b`, row `b` of the input after EIGHT rounds. Rows never mix: a map on
  whole arrays that acts as one round on every row acts, iterated `n` times, as `n` rounds on every row
  (`iterate_rows`). Sums and products are those of the extended reals; the two programs build the very same
  expression, so no law beyond this bookkeeping is needed, and nothing is assumed finite.
-/
import Idealize.ShloMosaic.PureOps.Ideal
import Idealize.ShloMosaic.Lib.ValueIdx

noncomputable section

namespace Cert.Rounds

open Idealize.ShloMosaic Idealize.ShloMosaic.ValueIdx

/-- One round on a row: the row times the matrix `H`, then entry `j` times the phase `cz j`. -/
def round (H : Fin 4096 → Fin 4096 → EReal) (cz : Fin 4096 → EReal) (v : Fin 4096 → EReal) : Fin 4096 → EReal :=
  fun j => (∑ k : Fin 4096, v k * H k j) * cz j

/-- Row `p` of an array with rows of length 4096. -/
abbrev row {R : Nat} (s : (⟨2, ![R, 4096]⟩ : Shape).Idx → EReal) (p : Fin R) : Fin 4096 → EReal :=
  fun k => s (ix2 p k)

/-- The matrix held by a 4096×4096 array. -/
abbrev matOf (h : (⟨2, ![4096, 4096]⟩ : Shape).Idx → EReal) : Fin 4096 → Fin 4096 → EReal := fun k j => h (ix2 k j)

/-- The phase vector held by a length-4096 array. -/
abbrev phaseOf (c : (⟨1, ![4096]⟩ : Shape).Idx → EReal) : Fin 4096 → EReal := fun j => c (ix1 j)

/-- The result array: entry `(b, j)` is entry `j` of row `b` of `x` after eight rounds. -/
def result (x : (⟨2, ![2048, 4096]⟩ : Shape).Idx → EReal) (H : Fin 4096 → Fin 4096 → EReal) (cz : Fin 4096 → EReal) :
    (⟨2, ![2048, 4096]⟩ : Shape).Idx → EReal :=
  fun i => (round H cz)^[8] (row x (i 0)) (i 1)

/-- A map of arrays that is one round on every row is, iterated `n` times, `n` rounds on every row. -/
theorem iterate_rows {R : Nat} (H : Fin 4096 → Fin 4096 → EReal) (cz : Fin 4096 → EReal)
    (f : ((⟨2, ![R, 4096]⟩ : Shape).Idx → EReal) → ((⟨2, ![R, 4096]⟩ : Shape).Idx → EReal))
    (hf : ∀ s (p : Fin R) (q : Fin 4096), f s (ix2 p q) = round H cz (row s p) q)
    (n : Nat) (s : (⟨2, ![R, 4096]⟩ : Shape).Idx → EReal) (p : Fin R) (q : Fin 4096) :
    f^[n] s (ix2 p q) = (round H cz)^[n] (row s p) q := by
  induction n generalizing q with
  | zero => rfl
  | succ n ih =>
    rw [Function.iterate_succ_apply', Function.iterate_succ_apply', hf]
    exact congrFun (congrArg (round H cz) (funext fun k => ih k)) q

end Cert.Rounds

end
-- ==== Proof.KernelRounds.lean ====
/-
  The kernel body computes the eight rounds on its block of 64 rows.

  One kernel round takes the running 64×4096 block `s`, the whole matrix block `h` and the 1×4096 phase block
  `c`: it contracts `s` with `h` over the second axis into a zero accumulator, and multiplies by `c` broadcast
  over the 64 rows (the changes of float format and the casts between equal shapes are the identity on extended
  reals). Read at entry `(p, q)` it is one round of row `p`, at `q`. The value the body stores is that operation
  applied eight times to the loaded input block.
-/
import proofs.«127444_j53163105190115_2_alg».proof.Proof.Gen.KernelIdeal.Skeleton
import proofs.«127444_j53163105190115_2_alg».proof.Proof.Rounds
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx Cert.Rounds

/-- The contraction's dimension record: axis 1 of the left operand against axis 0 of the right. -/
abbrev D : DotDims S64x4096 S4096x4096 S64x4096 := dot_S64x4096_S4096x4096_S64x4096_1_0_0_1_n_n

theorem lhs_row (i : S64x4096.Idx) (k : D.contr.Idx) : (D.lhsIdx i k 0).val = (i 0).val := by
  unfold DotDims.lhsIdx
  rw [dif_neg (show ¬(0 : Fin S64x4096.rank) ∈ D.lhsBatch by decide),
    dif_pos (show (0 : Fin S64x4096.rank) ∈ D.lhsNonContracting by decide)]
  rfl
theorem lhs_col (i : S64x4096.Idx) (k : D.contr.Idx) : (D.lhsIdx i k 1).val = (k ⟨0, by decide⟩).val :=
  D.lhsIdx_val_of_single rfl i k
theorem rhs_row (i : S64x4096.Idx) (k : D.contr.Idx) : (D.rhsIdx i k 0).val = (k ⟨0, by decide⟩).val :=
  D.rhsIdx_val_of_single rfl i k
theorem rhs_col (i : S64x4096.Idx) (k : D.contr.Idx) : (D.rhsIdx i k 1).val = (i 1).val := by
  unfold DotDims.rhsIdx
  rw [dif_neg (show ¬(1 : Fin S4096x4096.rank) ∈ D.rhsBatch by decide),
    dif_pos (show (1 : Fin S4096x4096.rank) ∈ D.rhsNonContracting by decide)]
  rfl

/-- The contraction into a zero accumulator, at entry `(p, q)`: the sum over `k` of `a (p, k) * b (k, q)`. -/
theorem mix_apply (a : FVec Ideal S64x4096 .bf16) (b : FVec Ideal S4096x4096 .bf16) (p : Fin 64) (q : Fin 4096) :
    matmul D none a b (constant (F := Ideal) S64x4096 .f32 0x00000000#32) (ix2 p q)
      = ∑ k : Fin 4096, a (ix2 p k) * b (ix2 k q) := by
  simp only [matmul]
  rw [Ideal.matmul_constant_zero_apply, ← Equiv.sum_comp (contrEquiv1 D 4096 rfl rfl).symm]
  refine Finset.sum_congr rfl fun k _ => ?_
  have hk := contrEquiv1_symm_val D 4096 rfl rfl k
  have el : D.lhsIdx (ix2 p q) ((contrEquiv1 D 4096 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 4096 rfl rfl).symm k) = ix2 k q := funext fun a => Fin.ext (by
    match a with
    | ⟨0, _⟩ => exact (rhs_row _ _).trans hk
    | ⟨1, _⟩ => exact rhs_col _ _)
  rw [el, er]

/-- One kernel round on a block of 64 rows. -/
def kround (h : FVec Ideal S4096x4096 .bf16) (c : FVec Ideal S1x4096 .f32) (s : FVec Ideal S64x4096 .f32) :
    FVec Ideal S64x4096 .f32 :=
  mulf (matmul D none (truncf .bf16 s bitsLt_bf16_f32) (shapeCast S4096x4096 h shapeCasts_S4096x4096_S4096x4096)
      (constant S64x4096 .f32 0x00000000#32))
    (broadcastTo S64x4096 (shapeCast S1x4096 c shapeCasts_S1x4096_S1x4096) broadcasts_S1x4096_S64x4096)

/-- The matrix held by the kernel's matrix block, and the phase vector held by its one-row phase block. -/
abbrev matOfBlock (h : FVec Ideal S4096x4096 .bf16) : Fin 4096 → Fin 4096 → EReal := fun k j => h (ix2 k j)
abbrev phaseOfBlock (c : FVec Ideal S1x4096 .f32) : Fin 4096 → EReal := fun j => c (ix2 (0 : Fin 1) j)

/-- One kernel round at entry `(p, q)` is one round of row `p`, at `q`. -/
theorem kround_apply (h : FVec Ideal S4096x4096 .bf16) (c : FVec Ideal S1x4096 .f32) (s : FVec Ideal S64x4096 .f32)
    (p : Fin 64) (q : Fin 4096) :
    kround h c s (ix2 p q) = round (matOfBlock h) (phaseOfBlock c) (row s p) q := by
  unfold kround
  rw [mulf_apply, mix_apply, broadcastTo_1b_ab_apply, shapeCast_self, shapeCast_self]
  rfl

/-- The stored value is the kernel round applied eight times to the loaded input block. -/
theorem pay_eq (x0 : FVec Ideal S64x4096 .f32) (x1 : FVec Ideal S4096x4096 .bf16) (x2 : FVec Ideal S1x4096 .f32) :
    k0_pay1 (F := Ideal) (k0_pay2 x2) (k0_pay3 x0 x2 x1 x1 x1 x1 x1 x1) x1 x1 = (kround x1 x2)^[8] x0 := rfl

/-- The stored value at entry `(p, q)`: eight rounds of row `p` of the input block, at `q`. -/
theorem pay_apply (x0 : FVec Ideal S64x4096 .f32) (x1 : FVec Ideal S4096x4096 .bf16) (x2 : FVec Ideal S1x4096 .f32)
    (p : Fin 64) (q : Fin 4096) :
    k0_pay1 (F := Ideal) (k0_pay2 x2) (k0_pay3 x0 x2 x1 x1 x1 x1 x1 x1) x1 x1 (ix2 p q)
      = (round (matOfBlock x1) (phaseOfBlock x2))^[8] (row x0 p) q := by
  rw [pay_eq]
  exact iterate_rows (matOfBlock x1) (phaseOfBlock x2) (kround x1 x2) (fun s p q => kround_apply x1 x2 s p q) 8 x0 p q

end Cert.KernelIdeal.Body

end
-- ==== Proof.KernelValue.lean ====
/-
  From blocks to the whole array: what the kernel's output array holds after the run.

  The grid has 32 points. At point `t` the input and output windows are rows `64 t … 64 t + 63` (all 4096 columns)
  of their 2048×4096 arrays, while the matrix window and the one-row phase window are their whole arrays at every
  point. The body leaves in the output block, at `(p, q)`, eight rounds of row `p` of the input block; that is
  entry `(64 t + p, q)` of one array-wide function, the specification's result array of the three staged arrays.
  Row `r` lies in the block of point `r / 64`, so the 32 blocks cover the output array, which therefore ends
  holding that function everywhere. Finally the staged matrix is the matrix argument (a change of float format
  is the identity on extended reals) and the staged phase row is the phase argument laid out as a 1×4096 row, so
  the output is the result array of the three ARGUMENT arrays.
-/
import proofs.«127444_j53163105190115_2_alg».proof.Proof.Gen.KernelIdeal.Value
import proofs.«127444_j53163105190115_2_alg».proof.Proof.KernelRounds
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx Cert.Rounds Cert.KernelIdeal.Body
open Idealize.ShloMosaic.Pipeline (Dat)

variable (m : (ℓ : Loc nD τ sig) → Buf (Elt Ideal) ℓ) (ρ : Dev nD → PrngReg)

/-! ## The arrays the region finds -/

/-- The matrix array the region stages is the matrix argument with its float format changed: the same extended
    reals. -/
theorem V_matrix (c : Dev nD) : (V m c main_v0 : S4096x4096.Idx → EReal)
    = truncf (F := Ideal) .bf16 (m ((c : Thread nD τ).loc main_arg1)) bitsLt_bf16_f32 := by
  dsimp only [Gen.V, Gen.hostOps0]; after_results

/-- The phase array the region stages is the phase argument laid out as one row. -/
theorem V_phase (c : Dev nD) : (V m c main_v1 : S1x4096.Idx → EReal)
    = shapeCast S1x4096 (m ((c : Thread nD τ).loc main_arg2)) shapeCasts_S4096_S1x4096 := by
  dsimp only [Gen.V, Gen.hostOps0]; after_results; rfl

/-! ## What one grid point writes back -/

theorem origin : (![0, 0] : Fin 2 → Nat) = fun _ => 0 := funext fun a => by fin_cases a <;> rfl

/-- The block the body leaves in the output buffer, at entry `(p, q)`: eight rounds of row `p` of the input block. -/
theorem out_apply (x0 : Vec Ideal S64x4096 .f32) (x1 : Vec Ideal S4096x4096 .bf16) (x2 : Vec Ideal S1x4096 .f32)
    (p : Fin 64) (q : Fin 4096) :
    out0_3 x0 x1 x2 (ix2 p q) = (round (matOfBlock x1) (phaseOfBlock x2))^[8] (row x0 p) q := by
  unfold out0_3
  rw [View.canon_unit_zero origin]
  simp only [View.ld_unit_zero (S := S64x4096) origin, View.ld_unit_zero (S := S4096x4096) origin,
    View.ld_unit_zero (S := S1x4096) origin]
  exact Body.pay_apply x0 x1 x2 p q

/-- Where the windows' blocks sit at grid point `t`: the input and output blocks are rows `64 t … 64 t + 63`, all
    columns; the matrix and phase blocks are their whole arrays. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of grid point `t`'s block is row `64 t + p` of the array. -/
def rowOf (t : Fin cfg0.N) (p : Fin 64) : Fin 2048 :=
  ⟨t.val * 64 + p.val, by have := t.isLt; have hN : cfg0.N = 32 := N_0; omega⟩

/-- The input block at point `t` holds rows `64 t …` of the input array. -/
theorem read_rows (c : Dev nD) (t : Fin cfg0.N) (p : Fin 64) (k : Fin 4096) :
    iblk m c 0 t (ix2 p k) = V m c main_arg0 (ix2 (rowOf t p) k) := by
  obtain ⟨e0, e1, -⟩ := block_indices t
  show V m c main_arg0 (((cfg0.win 0).blk t).view.emb (ix2 p k)) = V m c main_arg0 (ix2 (rowOf t p) k)
  refine congrArg (V m c main_arg0) (funext fun a => Fin.ext ?_)
  match a with
  | ⟨0, _⟩ => show win0_0.index t (0 : Fin 2) * 64 + 1 * p.val = t.val * 64 + p.val; omega
  | ⟨1, _⟩ => show win0_0.index t (1 : Fin 2) * 4096 + 1 * k.val = k.val; omega

/-- The matrix block at every point is the whole matrix array. -/
theorem read_matrix (c : Dev nD) (t : Fin cfg0.N) (k j : Fin 4096) :
    iblk m c 1 t (ix2 k j) = V m c main_v0 (ix2 k j) := by
  obtain ⟨-, -, e0, e1, -⟩ := block_indices t
  show V m c main_v0 (((cfg0.win 1).blk t).view.emb (ix2 k j)) = V m c main_v0 (ix2 k j)
  refine congrArg (V m c main_v0) (funext fun a => Fin.ext ?_)
  match a with
  | ⟨0, _⟩ => show win0_1.index t (0 : Fin 2) * 4096 + 1 * k.val = k.val; omega
  | ⟨1, _⟩ => show win0_1.index t (1 : Fin 2) * 4096 + 1 * j.val = j.val; omega

/-- The phase block at every point is the whole one-row phase array. -/
theorem read_phase (c : Dev nD) (t : Fin cfg0.N) (j : Fin 4096) :
    iblk m c 2 t (ix2 (0 : Fin 1) j) = V m c main_v1 (ix2 (0 : Fin 1) j) := by
  obtain ⟨-, -, -, -, e0, e1, -⟩ := block_indices t
  show V m c main_v1 (((cfg0.win 2).blk t).view.emb (ix2 (0 : Fin 1) j)) = V m c main_v1 (ix2 (0 : Fin 1) j)
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 4096 + 1 * j.val = j.val; omega

/-- Entry `(p, q)` of the output block at point `t` is entry `(64 t + p, q)` of the output array. -/
theorem out_emb (t : Fin cfg0.N) (p : Fin 64) (q : Fin 4096) :
    ((cfg0.win 3).blk t).view.emb (ix2 p q) = ix2 (rowOf t p) q := by
  obtain ⟨-, -, -, -, -, -, e0, e1⟩ := block_indices t
  refine funext fun a => Fin.ext ?_
  match a with
  | ⟨0, _⟩ => show win0_3.index t (0 : Fin 2) * 64 + 1 * p.val = t.val * 64 + p.val; omega
  | ⟨1, _⟩ => show win0_3.index t (1 : Fin 2) * 4096 + 1 * q.val = q.val; omega

/-- The array the output ends holding, from the three arrays the region stages. -/
abbrev staged (c : Dev nD) : S2048x4096.Idx → EReal :=
  result (V m c main_arg0) (matOfBlock (V m c main_v0)) (phaseOfBlock (V m c main_v1))

/-- What point `t` writes back is block `t` of that array. -/
theorem flushed_eq (c : Dev nD) (t : Fin cfg0.N) :
    (dats m 0 c).flushed 3 t = ((cfg0.win 3).blk t).view.read (Elt Ideal) (staged m c) := by
  rw [Value.flushed3]
  funext y
  obtain ⟨p, q, rfl⟩ : ∃ (p : Fin 64) (q : Fin 4096), y = ix2 p q := ⟨y 0, y 1, eq_ix2 y⟩
  show out0_3 (iblk m c 0 t) (iblk m c 1 t) (iblk m c 2 t) (ix2 p q)
    = staged m c (((cfg0.win 3).blk t).view.emb (ix2 p q))
  refine (out_apply (iblk m c 0 t) (iblk m c 1 t) (iblk m c 2 t) p q).trans ?_
  rw [out_emb]
  have hrow : row (R := 64) (iblk m c 0 t) p = row (V m c main_arg0) (rowOf t p) :=
    funext fun k => read_rows m c t p k
  have hmat : matOfBlock (iblk m c 1 t) = matOfBlock (V m c main_v0) :=
    funext fun k => funext fun j => read_matrix m c t k j
  have hph : phaseOfBlock (iblk m c 2 t) = phaseOfBlock (V m c main_v1) :=
    funext fun j => read_phase m c t j
  rw [hrow, hmat, hph]
  rfl

/-! ## The 32 blocks cover the array -/

theorem mem_blk (t : Fin cfg0.N) (i : S2048x4096.Idx) :
    i ∈ ((cfg0.win 3).blk t).view.set ↔ ∀ a : Fin 2, win0_3.index t a * S64x4096.size a ≤ (i a).val
      ∧ (i a).val < win0_3.index t a * S64x4096.size a + S64x4096.size a := by
  show i ∈ ((View.whole main_v2).slice (win0_3.rect t)).set ↔ _
  rw [View.set_slice_whole, Rect.mem_set_unit]
  exact Iff.rfl

/-- Row `r` of the array lies in the block of grid point `r / 64`. -/
theorem cover (i : S2048x4096.Idx) :
    ∃ t : Fin cfg0.N, (cfg0.win 3).flush t = true ∧ i ∈ ((cfg0.win 3).blk t).view.set := by
  have hi0 : (i 0).val < 2048 := (i 0).isLt
  have hi1 : (i 1).val < 4096 := (i 1).isLt
  have hN : cfg0.N = 32 := N_0
  obtain ⟨t, ht⟩ : ∃ t : Fin cfg0.N, t.val = (i 0).val / 64 := ⟨⟨(i 0).val / 64, by omega⟩, rfl⟩
  obtain ⟨-, -, -, -, -, -, e0, e1⟩ := block_indices t
  refine ⟨t, flush0_3 t, ?_⟩
  rw [mem_blk]
  intro a
  match a with
  | ⟨0, _⟩ =>
    show win0_3.index t (0 : Fin 2) * 64 ≤ (i 0).val ∧ (i 0).val < win0_3.index t (0 : Fin 2) * 64 + 64
    omega
  | ⟨1, _⟩ =>
    show win0_3.index t (1 : Fin 2) * 4096 ≤ (i 1).val ∧ (i 1).val < win0_3.index t (1 : Fin 2) * 4096 + 4096
    omega

/-! ## The output array after the run -/

/-- The staged arrays hold the arguments: the output array is the specification's result array of the three
    argument arrays. -/
theorem staged_eq (c : Dev nD) :
    staged m c = result (m ((c : Thread nD τ).loc main_arg0))
      (matOf (m ((c : Thread nD τ).loc main_arg1))) (phaseOf (m ((c : Thread nD τ).loc main_arg2))) := by
  have hmat : matOfBlock (V m c main_v0) = matOf (m ((c : Thread nD τ).loc main_arg1)) := by
    rw [V_matrix]; rfl
  have hph : phaseOfBlock (V m c main_v1) = phaseOf (m ((c : Thread nD τ).loc main_arg2)) := by
    rw [V_phase]
    exact funext fun j => shapeCast_a_1a_apply _ shapeCasts_S4096_S1x4096 (0 : Fin 1) j
  unfold staged
  rw [hmat, hph, V_main_arg0]

theorem final (c : Dev nD) : (dats m 0 c).arrAt 3 cfg0.N
    = result (m ((c : Thread nD τ).loc main_arg0))
      (matOf (m ((c : Thread nD τ).loc main_arg1))) (phaseOf (m ((c : Thread nD τ).loc main_arg2))) :=
  ((dats m 0 c).arrAt_eq_of_cover 3 (staged m c) (fun t _ => flushed_eq m c t) cover).trans (staged_eq m c)

/-- The kernel's run: it terminates with the output array at the result array of the arguments, the arguments
    unchanged. -/
theorem run : θ_run defs (onTc (τ := τ) (main (F := Ideal))) ⟨m, fun _ => 0, ρ⟩ fun r => ∀ c : Dev nD,
      r.2.mem ((c : Thread nD τ).loc main_v2) = result (m ((c : Thread nD τ).loc main_arg0))
        (matOf (m ((c : Thread nD τ).loc main_arg1))) (phaseOf (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefRounds.lean ====
/-
  The reference computes the eight rounds.

  One reference round is a contraction of the running array with the matrix over the array's second axis,
  followed by a product with the phase vector broadcast over the rows; read at entry `(p, q)` it is one round of
  row `p`, at `q`. The reference's result is that operation applied eight times to the input, so it is the
  result array of the specification.
-/
import proofs.«127444_j53163105190115_2_alg».proof.Proof.Gen.ReferenceIdeal.Read
import proofs.«127444_j53163105190115_2_alg».proof.Proof.Rounds

noncomputable section

namespace Cert.ReferenceIdeal.RefValue

open Cert.ReferenceIdeal Cert.ReferenceIdeal.Gen Cert.ReferenceIdeal.Read
open Idealize.ShloMosaic Idealize.ShloMosaic.ValueIdx Cert.Rounds

/-- One reference round at entry `(p, q)`: the sum over `k` of `s (p, k) * h (k, q)`, times `c q`. -/
theorem round_apply (s : FVec Ideal S2048x4096 .f32) (h : FVec Ideal S4096x4096 .f32) (c : FVec Ideal S4096 .f32)
    (p : Fin 2048) (q : Fin 4096) :
    val_main_v3 (F := Ideal) s h c (ix2 p q) = round (matOf h) (phaseOf c) (row s p) q := by
  rw [val_main_v3_apply, val_main_v0_apply, val_main_v2_apply, val_main_v1_apply]
  have el : ∀ k : Fin 4096, lidx_main_v0 (ix2 p q) k = ix2 p k := fun k =>
    funext fun a => Fin.ext (by match a with | ⟨0, _⟩ => rfl | ⟨1, _⟩ => rfl)
  have er : ∀ k : Fin 4096, ridx_main_v0 (ix2 p q) k = ix2 k q := fun k =>
    funext fun a => Fin.ext (by match a with | ⟨0, _⟩ => rfl | ⟨1, _⟩ => rfl)
  have ec : idx_main_v1 (idx_main_v2 (ix2 p q)) = ix1 q :=
    funext fun a => Fin.ext (by match a with | ⟨0, _⟩ => rfl)
  simp only [el, er, ec, Ideal.mulf_def]
  rfl

/-- The reference's result is its round applied eight times to the input: each later round is the first one's
    operations again, on the previous round's array. -/
theorem eight_rounds (x : FVec Ideal S2048x4096 .f32) (h : FVec Ideal S4096x4096 .f32) (c : FVec Ideal S4096 .f32) :
    val_main_v31 (F := Ideal) x h c = (fun s => val_main_v3 (F := Ideal) s h c)^[8] x := rfl

/-- The reference's result is the specification's result array. -/
theorem value_eq (x : FVec Ideal S2048x4096 .f32) (h : FVec Ideal S4096x4096 .f32) (c : FVec Ideal S4096 .f32) :
    val_main_v31 (F := Ideal) x h c = result x (matOf h) (phaseOf c) := by
  funext i
  obtain ⟨p, q, rfl⟩ : ∃ (p : Fin 2048) (q : Fin 4096), i = ix2 p q := ⟨i 0, i 1, eq_ix2 i⟩
  rw [eight_rounds]
  exact iterate_rows (matOf h) (phaseOf c) (fun s => val_main_v3 (F := Ideal) s h c)
    (fun s p q => round_apply s h c p q) 8 x p q

end Cert.ReferenceIdeal.RefValue

end
-- ==== Proof.lean ====
/-
  Kernel and reference compute the same array over the extended reals.

  Both apply, to every row of the 2048×4096 input, eight rounds of: multiply the row by the 4096×4096 matrix,
  then multiply entry `j` by the phase `cz j` (Proof/Rounds.lean). The kernel does it 64 rows at a time, with the
  matrix and the phase vector passed through a change of float format and a change of layout that do not alter
  any extended real (Proof/KernelRounds.lean for one block, Proof/KernelValue.lean for the whole array); the
  reference does it on the whole array at once (Proof/RefRounds.lean). The two sides build the same sums and
  products in the same order, so the equality uses no algebraic law and never opens the finiteness
  precondition. The idealized kernel is the kernel's own text read over the extended reals: there is nothing to
  preserve beyond that. Each program's run, and with it that its arguments end unchanged, comes from the
  generated frame and run modules.
-/
import proofs.«127444_j53163105190115_2_alg».proof.Defs
import proofs.«127444_j53163105190115_2_alg».proof.Proof.Gen.Kernel
import proofs.«127444_j53163105190115_2_alg».proof.Proof.Gen.Kernel.Skeleton
import proofs.«127444_j53163105190115_2_alg».proof.Proof.Gen.Kernel.Launch
import proofs.«127444_j53163105190115_2_alg».proof.Proof.Gen.Kernel.Points
import proofs.«127444_j53163105190115_2_alg».proof.Proof.Gen.Kernel.Frame
import proofs.«127444_j53163105190115_2_alg».proof.Proof.Gen.KernelIdeal
import proofs.«127444_j53163105190115_2_alg».proof.Proof.Gen.KernelIdeal.Skeleton
import proofs.«127444_j53163105190115_2_alg».proof.Proof.Gen.KernelIdeal.Launch
import proofs.«127444_j53163105190115_2_alg».proof.Proof.Gen.KernelIdeal.Points
import proofs.«127444_j53163105190115_2_alg».proof.Proof.Gen.KernelIdeal.Frame
import proofs.«127444_j53163105190115_2_alg».proof.Proof.Gen.ReferenceIdeal
import proofs.«127444_j53163105190115_2_alg».proof.Proof.Gen.Pre_finite_inputs
import proofs.«127444_j53163105190115_2_alg».proof.Proof.Gen.KernelIdeal.Value
import proofs.«127444_j53163105190115_2_alg».proof.Proof.Gen.ReferenceIdeal.Run
import proofs.«127444_j53163105190115_2_alg».proof.Proof.Gen.ReferenceIdeal.Read
import proofs.«127444_j53163105190115_2_alg».proof.Proof.Rounds
import proofs.«127444_j53163105190115_2_alg».proof.Proof.KernelValue
import proofs.«127444_j53163105190115_2_alg».proof.Proof.RefRounds
import Idealize.ShloMosaic.Adequacy
import Idealize.ShloMosaic.Init

noncomputable section

namespace Cert.Proof

open Idealize.ShloMosaic Idealize.ShloMosaic.TcCoe Idealize.SL.Sem Cert.Rounds

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array of the (agreeing) arguments: eight rounds of every row. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.value_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
